-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x640000 : Shape := ⟨2, ![2, 640000]⟩
abbrev S1x128 : Shape := ⟨2, ![1, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S128x64 .f32) (main_arg9 : FVec F S64 .f32) (main_arg10 : FVec F S64x1 .f32) (main_arg11 : FVec F S1 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x1 .f32 := Host.absf main_arg10
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S128x128 .f32) (main_arg6 : FVec F S128x128 .f32) (main_arg7 : FVec F S128 .f32) (main_arg8 : FVec F S128x64 .f32) (main_arg9 : FVec F S64 .f32) (main_arg10 : FVec F S64x1 .f32) (main_arg11 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x1 .f32) (main_arg1 : IVec S2x640000 32) (main_arg2 : FVec F S1x128 .f32) (main_arg3 : FVec F S1x128 .f32) (main_arg4 : FVec F S128 .f32) (main_arg5 : FVec F S128x128 .f32) (main_arg6 : FVec F S128x128 .f32) (main_arg7 : FVec F S128 .f32) (main_arg8 : FVec F S128x64 .f32) (main_arg9 : FVec F S64 .f32) (main_arg10 : FVec F S64x1 .f32) (main_arg11 : FVec F S1 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S1x128 .f32 := Host.absf main_arg2
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S1x128 .f32 := Host.absf main_arg3
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S100000x1 : Shape := ⟨2, ![100000, 1]⟩
abbrev S2x640000 : Shape := ⟨2, ![2, 640000]⟩
abbrev S1x128 : Shape := ⟨2, ![1, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S100000x128 : Shape := ⟨2, ![100000, 128]⟩
abbrev S5000x1 : Shape := ⟨2, ![5000, 1]⟩
abbrev S5000x128 : Shape := ⟨2, ![5000, 128]⟩
abbrev S640000x128 : Shape := ⟨2, ![640000, 128]⟩
abbrev S5000x64 : Shape := ⟨2, ![5000, 64]⟩
abbrev S1x64 : Shape := ⟨2, ![1, 64]⟩
abbrev S1x1 : Shape := ⟨2, ![1, 1]⟩

abbrev nBuf : Space → Nat
  | .hbm => 60
  | .vmem => 22
  | .smem => 0
  | _ => 0

abbrev bufTy : (tb : Table) → Fin (tcTables nBuf tb) → BufTy
  | .hbm, ⟨0, _⟩ => ⟨S100000x1, .f32⟩
  | .hbm, ⟨1, _⟩ => ⟨S2x640000, .i32⟩
  | .hbm, ⟨2, _⟩ => ⟨S1x128, .f32⟩
  | .hbm, ⟨3, _⟩ => ⟨S1x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S64x1, .f32⟩
  | .hbm, ⟨11, _⟩ => ⟨S1, .f32⟩
  | .hbm, ⟨12, _⟩ => ⟨S1x640000, .i32⟩
  | .hbm, ⟨13, _⟩ => ⟨S640000, .i32⟩
  | .hbm, ⟨14, _⟩ => ⟨S1x640000, .i32⟩
  | .hbm, ⟨15, _⟩ => ⟨S640000, .i32⟩
  | .hbm, ⟨16, _⟩ => ⟨S_, .f32⟩
  | .hbm, ⟨17, _⟩ => ⟨S640000x1, .f32⟩
  | .hbm, ⟨18, _⟩ => ⟨S_, .f32⟩
  | .hbm, ⟨19, _⟩ => ⟨S100000x1, .f32⟩
  | .hbm, ⟨20, _⟩ => ⟨S640000x1, .i32⟩
  | .hbm, ⟨21, _⟩ => ⟨S100000x1, .f32⟩
  | .hbm, ⟨22, _⟩ => ⟨S_, .f32⟩
  | .hbm, ⟨23, _⟩ => ⟨S100000x1, .f32⟩
  | .hbm, ⟨24, _⟩ => ⟨S100000x1, .f32⟩
  | .hbm, ⟨25, _⟩ => ⟨S_, .i32⟩
  | .hbm, ⟨26, _⟩ => ⟨S640000, .i32⟩
  | .hbm, ⟨27, _⟩ => ⟨S640000, .i1⟩
  | .hbm, ⟨28, _⟩ => ⟨S_, .i32⟩
  | .hbm, ⟨29, _⟩ => ⟨S640000, .i32⟩
  | .hbm, ⟨30, _⟩ => ⟨S640000, .i32⟩
  | .hbm, ⟨31, _⟩ => ⟨S640000, .i32⟩
  | .hbm, ⟨32, _⟩ => ⟨S640000x1, .i32⟩
  | .hbm, ⟨33, _⟩ => ⟨S640000x1, .f32⟩
  | .hbm, ⟨34, _⟩ => ⟨S_, .f32⟩
  | .hbm, ⟨35, _⟩ => ⟨S100000x1, .f32⟩
  | .hbm, ⟨36, _⟩ => ⟨S640000x1, .i32⟩
  | .hbm, ⟨37, _⟩ => ⟨S100000x1, .f32⟩
  | .hbm, ⟨38, _⟩ => ⟨S100000x1, .f32⟩
  | .hbm, ⟨39, _⟩ => ⟨S100000x128, .f32⟩
  | .hbm, ⟨40, _⟩ => ⟨S_, .i32⟩
  | .hbm, ⟨41, _⟩ => ⟨S640000, .i32⟩
  | .hbm, ⟨42, _⟩ => ⟨S640000, .i1⟩
  | .hbm, ⟨43, _⟩ => ⟨S_, .i32⟩
  | .hbm, ⟨44, _⟩ => ⟨S640000, .i32⟩
  | .hbm, ⟨45, _⟩ => ⟨S640000, .i32⟩
  | .hbm, ⟨46, _⟩ => ⟨S640000, .i32⟩
  | .hbm, ⟨47, _⟩ => ⟨S640000x1, .i32⟩
  | .hbm, ⟨48, _⟩ => ⟨S640000x128, .f32⟩
  | .hbm, ⟨49, _⟩ => ⟨S_, .f32⟩
  | .hbm, ⟨50, _⟩ => ⟨S100000x128, .f32⟩
  | .hbm, ⟨51, _⟩ => ⟨S640000x1, .i32⟩
  | .hbm, ⟨52, _⟩ => ⟨S100000x128, .f32⟩
  | .hbm, ⟨53, _⟩ => ⟨S100000x128, .f32⟩
  | .hbm, ⟨54, _⟩ => ⟨S100000x128, .f32⟩
  | .hbm, ⟨55, _⟩ => ⟨S128x128, .bf16⟩
  | .hbm, ⟨56, _⟩ => ⟨S128x128, .bf16⟩
  | .hbm, ⟨57, _⟩ => ⟨S128x64, .bf16⟩
  | .hbm, ⟨58, _⟩ => ⟨S64x1, .bf16⟩
  | .hbm, ⟨59, _⟩ => ⟨S100000x1, .f32⟩
  | .local _ .vmem, ⟨0, _⟩ => ⟨S5000x1, .f32⟩
  | .local _ .vmem, ⟨1, _⟩ => ⟨S5000x1, .f32⟩
  | .local _ .vmem, ⟨2, _⟩ => ⟨S5000x1, .f32⟩
  | .local _ .vmem, ⟨3, _⟩ => ⟨S5000x1, .f32⟩
  | .local _ .vmem, ⟨4, _⟩ => ⟨S1x128, .f32⟩
  | .local _ .vmem, ⟨5, _⟩ => ⟨S1x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .bf16⟩
  | .local _ .vmem, ⟨14, _⟩ => ⟨S128x128, .bf16⟩
  | .local _ .vmem, ⟨15, _⟩ => ⟨S128, .f32⟩
  | .local _ .vmem, ⟨16, _⟩ => ⟨S128x64, .bf16⟩
  | .local _ .vmem, ⟨17, _⟩ => ⟨S64, .f32⟩
  | .local _ .vmem, ⟨18, _⟩ => ⟨S64x1, .bf16⟩
  | .local _ .vmem, ⟨19, _⟩ => ⟨S1, .f32⟩
  | .local _ .vmem, ⟨20, _⟩ => ⟨S5000x1, .f32⟩
  | .local _ .vmem, ⟨21, _⟩ => ⟨S5000x1, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_c : Ref sig .tc := ⟨.hbm, 25, rfl⟩
abbrev main_v10 : Ref sig .tc := ⟨.hbm, 26, rfl⟩
abbrev main_v11 : Ref sig .tc := ⟨.hbm, 27, rfl⟩
abbrev main_c_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg9_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem9_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x1 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000x1 : S_.BroadcastsInDim S640000x1 (![] : Fin 0 → Fin S640000x1.rank)
  bcast_S_S100000x1 : S_.BroadcastsInDim S100000x1 (![] : Fin 0 → Fin S100000x1.rank)
  bcast_S640000_S640000x1_0 : S640000.BroadcastsInDim S640000x1 (![0] : Fin 1 → Fin S640000x1.rank)
  bcast_S_S640000 : S_.BroadcastsInDim S640000 (![] : Fin 0 → Fin S640000.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x128_S1x128_0_0 : ∀ a, (![0, 0] : Fin 2 → Nat) a + S1x128.size a ≤ S1x128.size a
  h_S1x128 : 0 < S1x128.numel
  inb_S128_S128_0 : ∀ a, (![0] : Fin 1 → Nat) a + S128.size a ≤ S128.size a
  h_S128 : 0 < S128.numel
  broadcasts_S5000x1_S5000x128 : S5000x1.Broadcasts S5000x128
  broadcasts_S1x128_S5000x128 : S1x128.Broadcasts S5000x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  scatter_S100000x1_S640000x1_S640000x1_1_0_0_1_wf : ScatterDims.WF S100000x1 S640000x1 S640000x1 [1] [0] [0] 1
  gather_S100000x1_S640000x1_S640000x1_1_0_n_n_0_1_11_wf : GatherDims.WF S100000x1 S640000x1 S640000x1 [1] [0] [] [0] [] 1 ![1, 1]
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S100000x1.size a
  hwx0_0 : ∀ i : grid0.Coords, EltTy.bits .f32 = 32 ∨ (Rect.block (s := S100000x1) S5000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .bf16 = 32 ∨ (Rect.block (s := S128x64) S128x64.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x1.size a ≤ S64x1.size a
  hwx1_7 : ∀ i : grid1.Coords, EltTy.bits .bf16 = 32 ∨ (Rect.block (s := S64x1) S64x1.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1.size a ≤ S1.size a
  hwx1_8 : ∀ i : grid1.Coords, EltTy.bits .f32 = 32 ∨ (Rect.block (s := S1) S1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x1.size a ≤ S100000x1.size a
  hwx1_9 : ∀ i : grid1.Coords, EltTy.bits .f32 = 32 ∨ (Rect.block (s := S100000x1) S5000x1.size (cc1_transform_9 i) (hinb1_9 i)).WholeWords (EltTy.packing .f32)

variable [Facts₀]

def scatter_S100000x1_S640000x1_S640000x1_1_0_0_1 : ScatterDims S100000x1 S640000x1 S640000x1 where
  updateWindowDims := [1]
  insertedWindowDims := [0]
  scatterDimsToOperandDims := [0]
  indexVectorDim := 1
  wf := scatter_S100000x1_S640000x1_S640000x1_1_0_0_1_wf
def gather_S100000x1_S640000x1_S640000x1_1_0_n_n_0_1_11 : GatherDims S100000x1 S640000x1 S640000x1 where
  offsetDims := [1]
  collapsedSliceDims := [0]
  operandBatchingDims := []
  startIndicesBatchingDims := []
  startIndexMap := [0]
  indexVectorDim := 1
  sliceSizes := ![1, 1]
  wf := gather_S100000x1_S640000x1_S640000x1_1_0_n_n_0_1_11_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_v20) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v33) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v37) S64x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg11) S1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v38) S5000x1.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x1 : Shape := ⟨2, ![100000, 1]⟩
abbrev S2x640000 : Shape := ⟨2, ![2, 640000]⟩
abbrev S1x128 : Shape := ⟨2, ![1, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S100000x128 : Shape := ⟨2, ![100000, 128]⟩
abbrev S640000x128 : Shape := ⟨2, ![640000, 128]⟩
abbrev S100000x64 : Shape := ⟨2, ![100000, 64]⟩
abbrev S1x64 : Shape := ⟨2, ![1, 64]⟩
abbrev S1x1 : Shape := ⟨2, ![1, 1]⟩

abbrev nBuf : Space → Nat
  | .hbm => 97
  | .vmem => 0
  | .smem => 0
  | _ => 0

abbrev bufTy : (tb : Table) → Fin (tcTables nBuf tb) → BufTy
  | .hbm, ⟨0, _⟩ => ⟨S100000x1, .f32⟩
  | .hbm, ⟨1, _⟩ => ⟨S2x640000, .i32⟩
  | .hbm, ⟨2, _⟩ => ⟨S1x128, .f32⟩
  | .hbm, ⟨3, _⟩ => ⟨S1x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S64x1, .f32⟩
  | .hbm, ⟨11, _⟩ => ⟨S1, .f32⟩
  | .hbm, ⟨12, _⟩ => ⟨S1x640000, .i32⟩
  | .hbm, ⟨13, _⟩ => ⟨S640000, .i32⟩
  | .hbm, ⟨14, _⟩ => ⟨S1x640000, .i32⟩
  | .hbm, ⟨15, _⟩ => ⟨S640000, .i32⟩
  | .hbm, ⟨16, _⟩ => ⟨S_, .i32⟩
  | .hbm, ⟨17, _⟩ => ⟨S640000, .i32⟩
  | .hbm, ⟨18, _⟩ => ⟨S640000, .i1⟩
  | .hbm, ⟨19, _⟩ => ⟨S_, .i32⟩
  | .hbm, ⟨20, _⟩ => ⟨S640000, .i32⟩
  | .hbm, ⟨21, _⟩ => ⟨S640000, .i32⟩
  | .hbm, ⟨22, _⟩ => ⟨S640000, .i32⟩
  | .hbm, ⟨23, _⟩ => ⟨S640000x1, .i32⟩
  | .hbm, ⟨24, _⟩ => ⟨S640000x1, .f32⟩
  | .hbm, ⟨25, _⟩ => ⟨S_, .f32⟩
  | .hbm, ⟨26, _⟩ => ⟨S100000x1, .f32⟩
  | .hbm, ⟨27, _⟩ => ⟨S640000x1, .i32⟩
  | .hbm, ⟨28, _⟩ => ⟨S100000x1, .f32⟩
  | .hbm, ⟨29, _⟩ => ⟨S_, .f32⟩
  | .hbm, ⟨30, _⟩ => ⟨S640000x1, .f32⟩
  | .hbm, ⟨31, _⟩ => ⟨S_, .f32⟩
  | .hbm, ⟨32, _⟩ => ⟨S100000x1, .f32⟩
  | .hbm, ⟨33, _⟩ => ⟨S640000x1, .i32⟩
  | .hbm, ⟨34, _⟩ => ⟨S100000x1, .f32⟩
  | .hbm, ⟨35, _⟩ => ⟨S_, .f32⟩
  | .hbm, ⟨36, _⟩ => ⟨S100000x1, .f32⟩
  | .hbm, ⟨37, _⟩ => ⟨S100000x1, .f32⟩
  | .hbm, ⟨38, _⟩ => ⟨S100000x1, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S640000, .i32⟩
  | .hbm, ⟨50, _⟩ => ⟨S640000, .i1⟩
  | .hbm, ⟨51, _⟩ => ⟨S_, .i32⟩
  | .hbm, ⟨52, _⟩ => ⟨S640000, .i32⟩
  | .hbm, ⟨53, _⟩ => ⟨S640000, .i32⟩
  | .hbm, ⟨54, _⟩ => ⟨S640000, .i32⟩
  | .hbm, ⟨55, _⟩ => ⟨S640000x1, .i32⟩
  | .hbm, ⟨56, _⟩ => ⟨S640000x128, .f32⟩
  | .hbm, ⟨57, _⟩ => ⟨S_, .f32⟩
  | .hbm, ⟨58, _⟩ => ⟨S100000x128, .f32⟩
  | .hbm, ⟨59, _⟩ => ⟨S640000x1, .i32⟩
  | .hbm, ⟨60, _⟩ => ⟨S100000x128, .f32⟩
  | .hbm, ⟨61, _⟩ => ⟨S_, .f32⟩
  | .hbm, ⟨62, _⟩ => ⟨S640000x1, .f32⟩
  | .hbm, ⟨63, _⟩ => ⟨S_, .f32⟩
  | .hbm, ⟨64, _⟩ => ⟨S100000x1, .f32⟩
  | .hbm, ⟨65, _⟩ => ⟨S640000x1, .i32⟩
  | .hbm, ⟨66, _⟩ => ⟨S100000x1, .f32⟩
  | .hbm, ⟨67, _⟩ => ⟨S_, .f32⟩
  | .hbm, ⟨68, _⟩ => ⟨S100000x1, .f32⟩
  | .hbm, ⟨69, _⟩ => ⟨S100000x1, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S100000x64, .f32⟩
  | .hbm, ⟨79, _⟩ => ⟨S1x64, .f32⟩
  | .hbm, ⟨80, _⟩ => ⟨S100000x64, .f32⟩
  | .hbm, ⟨81, _⟩ => ⟨S100000x64, .f32⟩
  | .hbm, ⟨82, _⟩ => ⟨S_, .f32⟩
  | .hbm, ⟨83, _⟩ => ⟨S100000x64, .f32⟩
  | .hbm, ⟨84, _⟩ => ⟨S100000x64, .f32⟩
  | .hbm, ⟨85, _⟩ => ⟨S100000x1, .f32⟩
  | .hbm, ⟨86, _⟩ => ⟨S1x1, .f32⟩
  | .hbm, ⟨87, _⟩ => ⟨S100000x1, .f32⟩
  | .hbm, ⟨88, _⟩ => ⟨S100000x1, .f32⟩
  | .hbm, ⟨89, _⟩ => ⟨S100000x1, .f32⟩
  | .hbm, ⟨90, _⟩ => ⟨S100000x1, .f32⟩
  | .hbm, ⟨91, _⟩ => ⟨S_, .f32⟩
  | .hbm, ⟨92, _⟩ => ⟨S100000x1, .f32⟩
  | .hbm, ⟨93, _⟩ => ⟨S100000x1, .f32⟩
  | .hbm, ⟨94, _⟩ => ⟨S_, .f32⟩
  | .hbm, ⟨95, _⟩ => ⟨S100000x1, .f32⟩
  | .hbm, ⟨96, _⟩ => ⟨S100000x1, .f32⟩
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_call0_cst : Ref sig .tc := ⟨.hbm, 45, rfl⟩
abbrev main_call0_v0 : Ref sig .tc := ⟨.hbm, 46, rfl⟩
abbrev main_v27 : Ref sig .tc := ⟨.hbm, 47, rfl⟩
abbrev main_c_4 : Ref sig .tc := ⟨.hbm, 48, rfl⟩
abbrev main_v28 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_6 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_7 : Ref sig .tc := ⟨.hbm, 61, rfl⟩
abbrev main_v38 : Ref sig .tc := ⟨.hbm, 62, rfl⟩
abbrev main_cst_8 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_9 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_call1_cst : Ref sig .tc := ⟨.hbm, 82, rfl⟩
abbrev main_call1_v0 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_10 : Ref sig .tc := ⟨.hbm, 91, rfl⟩
abbrev main_v63 : Ref sig .tc := ⟨.hbm, 92, rfl⟩
abbrev main_v64 : Ref sig .tc := ⟨.hbm, 93, rfl⟩
abbrev main_cst_11 : Ref sig .tc := ⟨.hbm, 94, rfl⟩
abbrev main_v65 : Ref sig .tc := ⟨.hbm, 95, rfl⟩
abbrev main_v66 : Ref sig .tc := ⟨.hbm, 96, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x1 : S_.BroadcastsInDim S100000x1 (![] : Fin 0 → Fin S100000x1.rank)
  bcast_S_S640000x1 : S_.BroadcastsInDim S640000x1 (![] : Fin 0 → Fin S640000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x1_S640000x1_S640000x1_1_0_n_n_0_1_11_wf : GatherDims.WF S100000x1 S640000x1 S640000x1 [1] [0] [] [0] [] 1 ![1, 1]
  scatter_S100000x1_S640000x1_S640000x1_1_0_0_1_wf : ScatterDims.WF S100000x1 S640000x1 S640000x1 [1] [0] [0] 1
  dot_S100000x1_S1x128_S100000x128_1_0_0_1_n_n_wf : DotDims.WF S100000x1 S1x128 S100000x128 [1] [0] [0] [1] [] []
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  dot_S100000x64_S64x1_S100000x1_1_0_0_1_n_n_wf : DotDims.WF S100000x64 S64x1 S100000x1 [1] [0] [0] [1] [] []

variable [Facts₀]

def gather_S100000x1_S640000x1_S640000x1_1_0_n_n_0_1_11 : GatherDims S100000x1 S640000x1 S640000x1 where
  offsetDims := [1]
  collapsedSliceDims := [0]
  operandBatchingDims := []
  startIndicesBatchingDims := []
  startIndexMap := [0]
  indexVectorDim := 1
  sliceSizes := ![1, 1]
  wf := gather_S100000x1_S640000x1_S640000x1_1_0_n_n_0_1_11_wf
def scatter_S100000x1_S640000x1_S640000x1_1_0_0_1 : ScatterDims S100000x1 S640000x1 S640000x1 where
  updateWindowDims := [1]
  insertedWindowDims := [0]
  scatterDimsToOperandDims := [0]
  indexVectorDim := 1
  wf := scatter_S100000x1_S640000x1_S640000x1_1_0_0_1_wf
def dot_S100000x1_S1x128_S100000x128_1_0_0_1_n_n : DotDims S100000x1 S1x128 S100000x128 where
  lhsContracting := [1]
  rhsContracting := [0]
  lhsNonContracting := [0]
  rhsNonContracting := [1]
  lhsBatch := []
  rhsBatch := []
  wf := dot_S100000x1_S1x128_S100000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KernelRun.lean ====
/-
  The idealized kernel program's whole run with its RESULT named.

  The program is four stretches in a row: host operations (the edge lists, the in-degree count, the first neighbour
  mean), the first tiled region (layer 1), more host operations (the second neighbour mean, the weights' change of
  format), and the second tiled region (layer 2 and the head).  The generated frame follows each buffer's contents
  through the four stretches — `W1` after the first host stretch, `W2` after the first region, `W3` after the second
  host stretch, `W4` at the end — and reads back only the argument arrays.  Here the same launch is read back at the
  result buffer as well: every execution ends with the result array at `W4`'s value there, the arguments unchanged.
-/
import proofs.«106141_j46351287058741_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, the result array at the value the last
    stretch leaves in its buffer and every argument array as launched. -/
theorem run_result : θ_run defs (onTc (τ := τ) (main (F := F))) ⟨m, fun _ => 0, ρ⟩ (fun r => ∀ c : Dev nD,
      r.2.mem ((c.tc : Thread nD τ).loc main_v38) = W4 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v38 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.KernelIdeal.Hand

end
-- ==== Proof.Spec.lean ====
/-
  What both programs compute, index by index, on the extended reals.

  A two-layer GraphSAGE encoder followed by a two-layer perceptron with a logistic output, over 100000 nodes:
  * layer 1 (`layer1`): entry (r, c) is  max (mean r · wl c + x r · wr c + b c) 0, with one input feature per node,
    so the two matrix products of the textbook formula have a contraction of length one;
  * the head (`head`): row r of the neighbour mean and of the node features (128 entries each) gives
    h2 j = Σ_l mean r l · W2l l j + Σ_l h r l · W2r l j + b2 j,   z k = max (Σ_j h2 j · Wh1 j k + bh1 k) 0,
    logit = Σ_k z k · Wh2 k 0 + bh2 0,   and the result  1 / (1 + exp (- logit)).
  The neighbour means themselves (a gather along the edges' sources, a scatter-add onto their targets, a division by
  the clamped in-degree) are the same host operations in both programs and are never opened: they enter here as
  arguments.  The float literal 1.0 is kept as its word `0x3F800000`; zero is the extended real `0`.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- A matrix of extended reals with literal extents. -/
abbrev Mat (n0 n1 : Nat) : Type := (⟨2, ![n0, n1]⟩ : Shape).Idx → EReal
/-- A vector of extended reals with a literal extent. -/
abbrev Vc (n : Nat) : Type := (⟨1, ![n]⟩ : Shape).Idx → EReal

/-! ## Layer 1 -/

/-- Entry (r, c) of the first layer: the rectified sum of the neighbour mean's and the node's own feature, each scaled
    by its weight row, and the bias. -/
def layer1At (mean x : Mat 100000 1) (wl wr : Mat 1 128) (b : Vc 128) (r : Fin 100000) (c : Fin 128) : EReal :=
  max (mean (ix2 r 0) * wl (ix2 0 c) + x (ix2 r 0) * wr (ix2 0 c) + b (ix1 c)) 0

/-- The first layer as one array. -/
def layer1 (mean x : Mat 100000 1) (wl wr : Mat 1 128) (b : Vc 128) : Mat 100000 128 :=
  fun i => layer1At mean x wl wr b ⟨(i 0).val, idx2_lt0 i⟩ ⟨(i 1).val, idx2_lt1 i⟩

theorem layer1_ix2 (mean x : Mat 100000 1) (wl wr : Mat 1 128) (b : Vc 128) (r : Fin 100000) (c : Fin 128) :
    layer1 mean x wl wr b (ix2 r c) = layer1At mean x wl wr b r c := rfl

/-! ## Layer 2 and the head, one node at a time -/

/-- Entry j of the second layer for one node, from the node's row of neighbour means and its own row of features. -/
def hidden2 (mrow hrow : Fin 128 → EReal) (W2l W2r : Mat 128 128) (b2 : Vc 128) (j : Fin 128) : EReal :=
  (∑ l : Fin 128, mrow l * W2l (ix2 l j)) + (∑ l : Fin 128, hrow l * W2r (ix2 l j)) + b2 (ix1 j)

/-- Entry k of the perceptron's rectified hidden layer. -/
def mlp1 (h2 : Fin 128 → EReal) (Wh1 : Mat 128 64) (bh1 : Vc 64) (k : Fin 64) : EReal :=
  max ((∑ j : Fin 128, h2 j * Wh1 (ix2 j k)) + bh1 (ix1 k)) 0

/-- The perceptron's output before the logistic function. -/
def logit (z : Fin 64 → EReal) (Wh2 : Mat 64 1) (bh2 : Vc 1) : EReal :=
  (∑ k : Fin 64, z k * Wh2 (ix2 k 0)) + bh2 (ix1 0)

/-- The logistic function as both programs spell it: 1 / (1 + exp (-x)), the literal 1.0 as its word. -/
def sigmoid (x : EReal) : EReal :=
  Ideal.div (Ideal.ofBits .f32 0x3F800000#32) (Ideal.ofBits .f32 0x3F800000#32 + Ideal.exp (-x))

/-- The result for one node. -/
def headRow (mrow hrow : Fin 128 → EReal) (W2l W2r : Mat 128 128) (b2 : Vc 128) (Wh1 : Mat 128 64) (bh1 : Vc 64)
    (Wh2 : Mat 64 1) (bh2 : Vc 1) : EReal :=
  sigmoid (logit (fun k => mlp1 (fun j => hidden2 mrow hrow W2l W2r b2 j) Wh1 bh1 k) Wh2 bh2)

/-- The result as one array: node r's entry from row r of the neighbour means and of the features. -/
def head (mean2 h1 : Mat 100000 128) (W2l W2r : Mat 128 128) (b2 : Vc 128) (Wh1 : Mat 128 64) (bh1 : Vc 64)
    (Wh2 : Mat 64 1) (bh2 : Vc 1) : Mat 100000 1 :=
  fun i => headRow (fun l => mean2 (ix2 ⟨(i 0).val, idx2_lt0 i⟩ l)) (fun l => h1 (ix2 ⟨(i 0).val, idx2_lt0 i⟩ l))
    W2l W2r b2 Wh1 bh1 Wh2 bh2

theorem head_ix2 (mean2 h1 : Mat 100000 128) (W2l W2r : Mat 128 128) (b2 : Vc 128) (Wh1 : Mat 128 64) (bh1 : Vc 64)
    (Wh2 : Mat 64 1) (bh2 : Vc 1) (r : Fin 100000) (z : Fin 1) :
    head mean2 h1 W2l W2r b2 Wh1 bh1 Wh2 bh2 (ix2 r z)
      = headRow (fun l => mean2 (ix2 r l)) (fun l => h1 (ix2 r l)) W2l W2r b2 Wh1 bh1 Wh2 bh2 := rfl

end Cert.Spec

end
-- ==== Proof.Payloads.lean ====
/-
  The arithmetic of the two kernel bodies read at one index, on the extended reals.

  Each body is a chain of pointwise operations (products, sums, maxima, a difference, an exponential, a quotient) around
  a few operations that move indices: a cast of a shape to itself (the identity), a cast [n] → [1, n], a broadcast of one
  row [1, b] → [a, b], a broadcast of one column [a, 1] → [a, b], and three matrix products into a zero accumulator.
  Read at (p, q) each index-moving operation is its operand at one named index, and a matrix product is the sum over the
  contracted coordinate of the operands' products; with those, the first body's entry is the rectified sum of layer 1 and
  the second body's entry is the logistic head of the specification.
-/
import proofs.«106141_j46351287058741_1_alg».proof.Proof.Gen.KernelIdeal.Skeleton
import proofs.«106141_j46351287058741_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Payloads

open Cert.KernelIdeal Cert.KernelIdeal.Gen Idealize.ShloMosaic Idealize.ShloMosaic.ValueIdx

/-! ## The index-moving operations at (p, q) -/

/-- One column broadcast over many: a [a, 1] array broadcast to [a, b] reads, at (p, c), the operand at (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A matrix product [m, k] × [k, n] into the zero accumulator, contracting the left operand's columns with the right
    operand's rows, read at (p, j): the sum over the contracted coordinate l of a (p, l) · w (l, j). The four hypotheses
    say where the dimension record reads its operands: coordinates 0 and 1 of the left index are the result's row and the
    contraction position, those of the right index the contraction position and the result's column. -/
theorem matmul_ix2 {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ (i : (⟨2, ![m, n]⟩ : Shape).Idx) (q : D.contr.Idx), (D.lhsIdx i q ⟨0, Nat.zero_lt_two⟩).val = (i ⟨0, Nat.zero_lt_two⟩).val)
    (hl1 : ∀ (i : (⟨2, ![m, n]⟩ : Shape).Idx) (q : D.contr.Idx), (D.lhsIdx i q ⟨1, Nat.one_lt_two⟩).val = (q ⟨0, by omega⟩).val)
    (hr0 : ∀ (i : (⟨2, ![m, n]⟩ : Shape).Idx) (q : D.contr.Idx), (D.rhsIdx i q ⟨0, Nat.zero_lt_two⟩).val = (q ⟨0, by omega⟩).val)
    (hr1 : ∀ (i : (⟨2, ![m, n]⟩ : Shape).Idx) (q : D.contr.Idx), (D.rhsIdx i q ⟨1, Nat.one_lt_two⟩).val = (i ⟨1, Nat.one_lt_two⟩).val)
    (a : FVec Ideal ⟨2, ![m, k]⟩ φ₁) (w : FVec Ideal ⟨2, ![k, n]⟩ φ₂) (p : Fin m) (j : Fin n) :
    FloatOps.matmul D none a w (constant (F := Ideal) ⟨2, ![m, n]⟩ .f32 0x00000000#32) (ix2 p j)
      = ∑ l : Fin k, a (ix2 p l) * w (ix2 l j) := by
  rw [Ideal.matmul_constant_zero_apply, ← Equiv.sum_comp (contrEquiv1 D k hr hs).symm]
  refine Finset.sum_congr rfl fun l _ => ?_
  have hk := contrEquiv1_symm_val D k hr hs l
  have el : D.lhsIdx (ix2 p j) ((contrEquiv1 D k hr hs).symm l) = ix2 p l := funext fun ax => Fin.ext (by
    match ax with
    | ⟨0, _⟩ => exact hl0 _ _
    | ⟨1, _⟩ => exact (hl1 _ _).trans hk)
  have er : D.rhsIdx (ix2 p j) ((contrEquiv1 D k hr hs).symm l) = ix2 l j := funext fun ax => Fin.ext (by
    match ax with
    | ⟨0, _⟩ => exact (hr0 _ _).trans hk
    | ⟨1, _⟩ => exact hr1 _ _)
  rw [el, er]

/-- The product [5000, 128] × [128, 128] of the second body, read at (p, j). -/
theorem mm128 (a : FVec Ideal S5000x128 .bf16) (w : FVec Ideal S128x128 .bf16) (p : Fin 5000) (j : Fin 128) :
    matmul dot_S5000x128_S128x128_S5000x128_1_0_0_1_n_n none a w (constant (F := Ideal) S5000x128 .f32 0x00000000#32) (ix2 p j)
      = ∑ l : Fin 128, a (ix2 p l) * w (ix2 l j) :=
  matmul_ix2 dot_S5000x128_S128x128_S5000x128_1_0_0_1_n_n rfl rfl
    (fun i q => by
      unfold DotDims.lhsIdx
      rw [dif_neg (show ¬(⟨0, Nat.zero_lt_two⟩ : Fin S5000x128.rank) ∈ dot_S5000x128_S128x128_S5000x128_1_0_0_1_n_n.lhsBatch by decide),
        dif_pos (show (⟨0, Nat.zero_lt_two⟩ : Fin S5000x128.rank) ∈ dot_S5000x128_S128x128_S5000x128_1_0_0_1_n_n.lhsNonContracting by decide)]
      rfl)
    (fun i q => dot_S5000x128_S128x128_S5000x128_1_0_0_1_n_n.lhsIdx_val_of_single rfl i q)
    (fun i q => dot_S5000x128_S128x128_S5000x128_1_0_0_1_n_n.rhsIdx_val_of_single rfl i q)
    (fun i q => by
      unfold DotDims.rhsIdx
      rw [dif_neg (show ¬(⟨1, Nat.one_lt_two⟩ : Fin S128x128.rank) ∈ dot_S5000x128_S128x128_S5000x128_1_0_0_1_n_n.rhsBatch by decide),
        dif_pos (show (⟨1, Nat.one_lt_two⟩ : Fin S128x128.rank) ∈ dot_S5000x128_S128x128_S5000x128_1_0_0_1_n_n.rhsNonContracting by decide)]
      rfl)
    a w p j

/-- The product [5000, 128] × [128, 64] of the second body, read at (p, j). -/
theorem mm64 (a : FVec Ideal S5000x128 .bf16) (w : FVec Ideal S128x64 .bf16) (p : Fin 5000) (j : Fin 64) :
    matmul dot_S5000x128_S128x64_S5000x64_1_0_0_1_n_n none a w (constant (F := Ideal) S5000x64 .f32 0x00000000#32) (ix2 p j)
      = ∑ l : Fin 128, a (ix2 p l) * w (ix2 l j) :=
  matmul_ix2 dot_S5000x128_S128x64_S5000x64_1_0_0_1_n_n rfl rfl
    (fun i q => by
      unfold DotDims.lhsIdx
      rw [dif_neg (show ¬(⟨0, Nat.zero_lt_two⟩ : Fin S5000x128.rank) ∈ dot_S5000x128_S128x64_S5000x64_1_0_0_1_n_n.lhsBatch by decide),
        dif_pos (show (⟨0, Nat.zero_lt_two⟩ : Fin S5000x128.rank) ∈ dot_S5000x128_S128x64_S5000x64_1_0_0_1_n_n.lhsNonContracting by decide)]
      rfl)
    (fun i q => dot_S5000x128_S128x64_S5000x64_1_0_0_1_n_n.lhsIdx_val_of_single rfl i q)
    (fun i q => dot_S5000x128_S128x64_S5000x64_1_0_0_1_n_n.rhsIdx_val_of_single rfl i q)
    (fun i q => by
      unfold DotDims.rhsIdx
      rw [dif_neg (show ¬(⟨1, Nat.one_lt_two⟩ : Fin S128x64.rank) ∈ dot_S5000x128_S128x64_S5000x64_1_0_0_1_n_n.rhsBatch by decide),
        dif_pos (show (⟨1, Nat.one_lt_two⟩ : Fin S128x64.rank) ∈ dot_S5000x128_S128x64_S5000x64_1_0_0_1_n_n.rhsNonContracting by decide)]
      rfl)
    a w p j

/-- The product [5000, 64] × [64, 1] of the second body, read at (p, j). -/
theorem mm1 (a : FVec Ideal S5000x64 .bf16) (w : FVec Ideal S64x1 .bf16) (p : Fin 5000) (j : Fin 1) :
    matmul dot_S5000x64_S64x1_S5000x1_1_0_0_1_n_n none a w (constant (F := Ideal) S5000x1 .f32 0x00000000#32) (ix2 p j)
      = ∑ l : Fin 64, a (ix2 p l) * w (ix2 l j) :=
  matmul_ix2 dot_S5000x64_S64x1_S5000x1_1_0_0_1_n_n rfl rfl
    (fun i q => by
      unfold DotDims.lhsIdx
      rw [dif_neg (show ¬(⟨0, Nat.zero_lt_two⟩ : Fin S5000x64.rank) ∈ dot_S5000x64_S64x1_S5000x1_1_0_0_1_n_n.lhsBatch by decide),
        dif_pos (show (⟨0, Nat.zero_lt_two⟩ : Fin S5000x64.rank) ∈ dot_S5000x64_S64x1_S5000x1_1_0_0_1_n_n.lhsNonContracting by decide)]
      rfl)
    (fun i q => dot_S5000x64_S64x1_S5000x1_1_0_0_1_n_n.lhsIdx_val_of_single rfl i q)
    (fun i q => dot_S5000x64_S64x1_S5000x1_1_0_0_1_n_n.rhsIdx_val_of_single rfl i q)
    (fun i q => by
      unfold DotDims.rhsIdx
      rw [dif_neg (show ¬(⟨1, Nat.one_lt_two⟩ : Fin S64x1.rank) ∈ dot_S5000x64_S64x1_S5000x1_1_0_0_1_n_n.rhsBatch by decide),
        dif_pos (show (⟨1, Nat.one_lt_two⟩ : Fin S64x1.rank) ∈ dot_S5000x64_S64x1_S5000x1_1_0_0_1_n_n.rhsNonContracting by decide)]
      rfl)
    a w p j

/-! ## The first body -/

/-- Entry (p, q) of the first body's stored value: the rectified sum of the two scaled features and the bias. -/
theorem pay_layer1 (x0 x1 : Vec Ideal S5000x1 .f32) (x2 x3 : Vec Ideal S1x128 .f32) (x4 : Vec Ideal S128 .f32) (p : Fin 5000) (q : Fin 128) :
    k0_pay1 (F := Ideal) x0 x1 x2 x3 x4 (ix2 p q)
      = max (x0 (ix2 p 0) * x2 (ix2 0 q) + x1 (ix2 p 0) * x3 (ix2 0 q) + x4 (ix1 q)) 0 := by
  unfold k0_pay1
  simp only [maximumf_apply, addf_apply, mulf_apply, broadcast_apply, shapeCast_self, broadcastTo_a1_ab_apply,
    broadcastTo_1b_ab_apply, shapeCast_a_1a_apply, Scalar.ofBits, Ideal.ofBits_def, Ideal.ofBits_zero_f32]

/-! ## The second body -/

/-- An exponential at an index is the exponential of the element. -/
theorem exp_apply {s : Shape} {φ : FTy} (a : FVec Ideal s φ) (i : s.Idx) : exp a i = Ideal.exp (a i) := rfl

/-- Entry (p, 0) of the second body's stored value: the logistic head of the specification on row p of the two inputs. -/
theorem pay_head (x0 x1 : Vec Ideal S5000x128 .f32) (x2 x3 : Vec Ideal S128x128 .bf16) (x4 : Vec Ideal S128 .f32) (x5 : Vec Ideal S128x64 .bf16) (x6 : Vec Ideal S64 .f32) (x7 : Vec Ideal S64x1 .bf16) (x8 : Vec Ideal S1 .f32) (p : Fin 5000) (z : Fin 1) :
    k1_pay1 (F := Ideal) (k1_pay2 (F := Ideal) x0 x1 x2 x3 x4 x5 x6 x7 x8) (ix2 p z)
      = Cert.Spec.headRow (fun l => x0 (ix2 p l)) (fun l => x1 (ix2 p l)) x2 x3 x4 x5 x6 x7 x8 := by
  obtain rfl : z = 0 := Subsingleton.elim _ _
  unfold k1_pay1 k1_pay2
  simp only [divf_apply, addf_apply, subf_apply, exp_apply, maximumf_apply, truncf_apply, broadcast_apply, shapeCast_self,
    mm1, mm64, mm128, broadcastTo_1b_ab_apply, shapeCast_a_1a_apply, Scalar.ofBits, Ideal.ofBits_def, Ideal.ofBits_zero_f32,
    zero_sub, Cert.Spec.headRow, Cert.Spec.sigmoid, Cert.Spec.logit, Cert.Spec.mlp1, Cert.Spec.hidden2]

end Cert.Payloads

end
-- ==== Proof.Blocks0.lean ====
/-
  Region 1 of 2 (layer 1) read as a value: the twenty blocks of 5000 rows that the grid points write back are the
  blocks of ONE array, the first layer of the specification computed from the arrays the region finds on entry.

  At point t the neighbour-mean and feature windows hold rows 5000·t … 5000·t + 4999 of their arrays, the weight rows
  and the bias are staged whole, and the output window is rows 5000·t … 5000·t + 4999 of the result; the body's
  arithmetic at one entry is the specification's entry.  The blocks cover the array, so the array after the region
  is the specification's.  Everything is stated at ANY contents `V` of the buffers at the region's entry.
-/
import proofs.«106141_j46351287058741_1_alg».proof.Proof.Gen.KernelIdeal.Frame
import proofs.«106141_j46351287058741_1_alg».proof.Proof.Spec
import proofs.«106141_j46351287058741_1_alg».proof.Proof.Payloads
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- Where each window's block sits at grid point t, decided over the twenty points: the two node-indexed inputs and
    the output move down the node axis one block of 5000 rows per point; the weights and the bias stay put. -/
theorem blocks_at0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

theorem point_lt0 (t : Fin cfg0.N) : t.val < 20 := lt_of_lt_of_eq t.isLt N_0

/-- Row p of the neighbour-mean block at point t is row 5000·t + p of the array. -/
theorem mean_block0 (c : Dev nD) (t : Fin cfg0.N) (p : Fin 5000) (z : Fin 1) (r : Fin 100000) (hr : r.val = t.val * 5000 + p.val) :
    iblk0 V c 0 t (ix2 p z) = V c main_v20 (ix2 r z) := by
  obtain ⟨e0, e1, -⟩ := blocks_at0 t
  unfold iblk0
  rw [View.read_apply]
  show V c main_v20 _ = V c main_v20 _
  refine congrArg (V c main_v20) (funext fun a => Fin.ext ?_)
  match a with
  | ⟨0, _⟩ => show win0_0.index t (0 : Fin 2) * 5000 + 1 * p.val = r.val; rw [e0, hr]; omega
  | ⟨1, _⟩ => show win0_0.index t (1 : Fin 2) * 1 + 1 * z.val = z.val; rw [e1]; omega

/-- Row p of the feature block at point t is row 5000·t + p of the array. -/
theorem feat_block0 (c : Dev nD) (t : Fin cfg0.N) (p : Fin 5000) (z : Fin 1) (r : Fin 100000) (hr : r.val = t.val * 5000 + p.val) :
    iblk0 V c 1 t (ix2 p z) = V c main_arg0 (ix2 r z) := by
  obtain ⟨-, -, e0, e1, -⟩ := blocks_at0 t
  unfold iblk0
  rw [View.read_apply]
  show V c main_arg0 _ = V c main_arg0 _
  refine congrArg (V c main_arg0) (funext fun a => Fin.ext ?_)
  match a with
  | ⟨0, _⟩ => show win0_1.index t (0 : Fin 2) * 5000 + 1 * p.val = r.val; rw [e0, hr]; omega
  | ⟨1, _⟩ => show win0_1.index t (1 : Fin 2) * 1 + 1 * z.val = z.val; rw [e1]; omega

/-- The weight rows and the bias are staged whole at every point. -/
theorem wl_block0 (c : Dev nD) (t : Fin cfg0.N) (z : Fin 1) (q : Fin 128) :
    iblk0 V c 2 t (ix2 z q) = V c main_arg2 (ix2 z q) := by
  obtain ⟨-, -, -, -, e0, e1, -⟩ := blocks_at0 t
  unfold iblk0
  rw [View.read_apply]
  show V c main_arg2 _ = V c main_arg2 _
  refine congrArg (V c main_arg2) (funext fun a => Fin.ext ?_)
  match a with
  | ⟨0, _⟩ => show win0_2.index t (0 : Fin 2) * 1 + 1 * z.val = z.val; rw [e0]; omega
  | ⟨1, _⟩ => show win0_2.index t (1 : Fin 2) * 128 + 1 * q.val = q.val; rw [e1]; omega

theorem wr_block0 (c : Dev nD) (t : Fin cfg0.N) (z : Fin 1) (q : Fin 128) :
    iblk0 V c 3 t (ix2 z q) = V c main_arg3 (ix2 z q) := by
  obtain ⟨-, -, -, -, -, -, e0, e1, -⟩ := blocks_at0 t
  unfold iblk0
  rw [View.read_apply]
  show V c main_arg3 _ = V c main_arg3 _
  refine congrArg (V c main_arg3) (funext fun a => Fin.ext ?_)
  match a with
  | ⟨0, _⟩ => show win0_3.index t (0 : Fin 2) * 1 + 1 * z.val = z.val; rw [e0]; omega
  | ⟨1, _⟩ => show win0_3.index t (1 : Fin 2) * 128 + 1 * q.val = q.val; rw [e1]; omega

theorem bias_block0 (c : Dev nD) (t : Fin cfg0.N) (q : Fin 128) :
    iblk0 V c 4 t (ix1 q) = V c main_arg4 (ix1 q) := by
  obtain ⟨-, -, -, -, -, -, -, -, e0, -⟩ := blocks_at0 t
  unfold iblk0
  rw [View.read_apply]
  show V c main_arg4 _ = V c main_arg4 _
  refine congrArg (V c main_arg4) (funext fun a => Fin.ext ?_)
  match a with
  | ⟨0, _⟩ => show win0_4.index t (0 : Fin 1) * 128 + 1 * q.val = q.val; rw [e0]; omega

/-- Entry (p, q) of the output block at point t is entry (5000·t + p, q) of the array. -/
theorem out_block0 (t : Fin cfg0.N) (p : Fin 5000) (q : Fin 128) (r : Fin 100000) (hr : r.val = t.val * 5000 + p.val) :
    ((cfg0.win 5).blk t).view.emb (ix2 p q) = (ix2 r q : S100000x128.Idx) := by
  obtain ⟨-, -, -, -, -, -, -, -, -, e0, e1⟩ := blocks_at0 t
  refine funext fun a => Fin.ext ?_
  match a with
  | ⟨0, _⟩ => show win0_5.index t (0 : Fin 2) * 5000 + 1 * p.val = r.val; rw [e0, hr]; omega
  | ⟨1, _⟩ => show win0_5.index t (1 : Fin 2) * 128 + 1 * q.val = q.val; rw [e1]; omega

/-- What point t writes back is block t of the first layer computed from the arrays the region finds. -/
theorem flushed0_eq (c : Dev nD) (t : Fin cfg0.N) :
    (dat0 V c).flushed 5 t = ((cfg0.win 5).blk t).view.read (Elt Ideal)
      (Cert.Spec.layer1 (V c main_v20) (V c main_arg0) (V c main_arg2) (V c main_arg3) (V c main_arg4)) := by
  show (cfg0.win 5).cut (grid0.coords t) ((dat0 V c).after 5 t) = _
  rw [after0_5]
  unfold out0_5
  rw [View.canon_unit_zero zero2]
  simp only [View.ld_unit_zero (S := S5000x1) zero2, View.ld_unit_zero (S := S1x128) zero2, View.ld_unit_zero (S := S128) zero1]
  funext j
  revert j
  show ∀ j : S5000x128.Idx, k0_pay1 (iblk0 V c 0 t) (iblk0 V c 1 t) (iblk0 V c 2 t) (iblk0 V c 3 t) (iblk0 V c 4 t) j
      = Cert.Spec.layer1 (V c main_v20) (V c main_arg0) (V c main_arg2) (V c main_arg3) (V c main_arg4) (((cfg0.win 5).blk t).view.emb j)
  intro j
  obtain ⟨p, q, rfl⟩ : ∃ (p : Fin 5000) (q : Fin 128), j = ix2 p q := ⟨j 0, j 1, eq_ix2 j⟩
  have ht := point_lt0 t
  have hp := p.isLt
  obtain ⟨r, hr⟩ : ∃ r : Fin 100000, r.val = t.val * 5000 + p.val := ⟨⟨t.val * 5000 + p.val, by omega⟩, rfl⟩
  refine (Cert.Payloads.pay_layer1 (iblk0 V c 0 t) (iblk0 V c 1 t) (iblk0 V c 2 t) (iblk0 V c 3 t) (iblk0 V c 4 t) p q).trans ?_
  rw [mean_block0 V c t p 0 r hr, feat_block0 V c t p 0 r hr, wl_block0 V c t 0 q, wr_block0 V c t 0 q, bias_block0 V c t q,
    out_block0 t p q r hr, Cert.Spec.layer1_ix2]
  rfl

/-- An index lies in point t's output block when each coordinate is within the block's range on its axis. -/
theorem mem_out_block0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v21).slice (win0_5.rect t)).set ↔ _
  rw [View.set_slice_whole, Rect.mem_set_unit]
  exact Iff.rfl

/-- The twenty output blocks cover the array (row r is in block r / 5000), so after the region the first layer's
    array is the function of the specification of the arrays the region found. -/
theorem final0 (c : Dev nD) : (dat0 V c).arrAt 5 cfg0.N
    = Cert.Spec.layer1 (V c main_v20) (V c main_arg0) (V c main_arg2) (V c main_arg3) (V c main_arg4) :=
  (dat0 V c).arrAt_eq_of_cover 5 _ (fun t _ => flushed0_eq V c t) (fun (i : S100000x128.Idx) => by
    have hi0 : (i 0).val < 100000 := (i 0).isLt
    have hi1 : (i 1).val < 128 := (i 1).isLt
    obtain ⟨t, ht⟩ : ∃ t : Fin cfg0.N, t.val = (i 0).val / 5000 := ⟨⟨(i 0).val / 5000, by rw [show cfg0.N = 20 from N_0]; omega⟩, rfl⟩
    obtain ⟨-, -, -, -, -, -, -, -, -, e0, e1⟩ := blocks_at0 t
    refine ⟨t, flush0_5 t, ?_⟩
    rw [mem_out_block0]
    intro a
    match a with
    | ⟨0, _⟩ => show win0_5.index t (0 : Fin 2) * 5000 ≤ (i 0).val ∧ (i 0).val < win0_5.index t (0 : Fin 2) * 5000 + 5000; rw [e0, ht]; omega
    | ⟨1, _⟩ => show win0_5.index t (1 : Fin 2) * 128 ≤ (i 1).val ∧ (i 1).val < win0_5.index t (1 : Fin 2) * 128 + 128; rw [e1]; omega)

end Cert.KernelIdeal.Hand

end
-- ==== Proof.Blocks1.lean ====
/-
  Region 2 of 2 (layer 2 and the head) read as a value: the twenty blocks of 5000 rows that the grid points write
  back are the blocks of ONE array, the head of the specification computed from the arrays the region finds on entry.

  At point t the neighbour-mean and feature windows hold rows 5000·t … 5000·t + 4999 of their arrays, the four weight
  matrices and three biases are staged whole, and the output window is rows 5000·t … 5000·t + 4999 of the result; the
  body's arithmetic at one row is the specification's row.  The blocks cover the array, so the array after the region
  is the specification's.  Everything is stated at ANY contents `V` of the buffers at the region's entry.
-/
import proofs.«106141_j46351287058741_1_alg».proof.Proof.Gen.KernelIdeal.Frame
import proofs.«106141_j46351287058741_1_alg».proof.Proof.Spec
import proofs.«106141_j46351287058741_1_alg».proof.Proof.Payloads
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a; rfl

/-- Where each window's block sits at grid point t, decided over the twenty points: the neighbour means, the features
    and the output move down the node axis one block of 5000 rows per point; every weight and bias stays put. -/
theorem blocks_at1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 1) = 0
    ∧ win1_5.index t (0 : Fin 2) = 0
    ∧ win1_5.index t (1 : Fin 2) = 0
    ∧ win1_6.index t (0 : Fin 1) = 0
    ∧ win1_7.index t (0 : Fin 2) = 0
    ∧ win1_7.index t (1 : Fin 2) = 0
    ∧ win1_8.index t (0 : Fin 1) = 0
    ∧ win1_9.index t (0 : Fin 2) = t.val
    ∧ win1_9.index t (1 : Fin 2) = 0 :=
  (by decide +kernel : ∀ t : Fin grid1.N, _)

theorem point_lt1 (t : Fin cfg1.N) : t.val < 20 := lt_of_lt_of_eq t.isLt N_1

/-- Row p of window 0's block at point t is row 5000·t + p of its array. -/
theorem mean_block1 (c : Dev nD) (t : Fin cfg1.N) (p : Fin 5000) (l : Fin 128) (r : Fin 100000) (hr : r.val = t.val * 5000 + p.val) :
    iblk1 V c 0 t (ix2 p l) = V c main_v33 (ix2 r l) := by
  obtain ⟨e0, e1, -⟩ := blocks_at1 t
  unfold iblk1
  rw [View.read_apply]
  show V c main_v33 _ = V c main_v33 _
  refine congrArg (V c main_v33) (funext fun a => Fin.ext ?_)
  match a with
  | ⟨0, _⟩ => show win1_0.index t (0 : Fin 2) * 5000 + 1 * p.val = r.val; rw [e0, hr]; omega
  | ⟨1, _⟩ => show win1_0.index t (1 : Fin 2) * 128 + 1 * l.val = l.val; rw [e1]; omega

/-- Row p of window 1's block at point t is row 5000·t + p of its array. -/
theorem feat_block1 (c : Dev nD) (t : Fin cfg1.N) (p : Fin 5000) (l : Fin 128) (r : Fin 100000) (hr : r.val = t.val * 5000 + p.val) :
    iblk1 V c 1 t (ix2 p l) = V c main_v21 (ix2 r l) := by
  obtain ⟨-, -, e0, e1, -⟩ := blocks_at1 t
  unfold iblk1
  rw [View.read_apply]
  show V c main_v21 _ = V c main_v21 _
  refine congrArg (V c main_v21) (funext fun a => Fin.ext ?_)
  match a with
  | ⟨0, _⟩ => show win1_1.index t (0 : Fin 2) * 5000 + 1 * p.val = r.val; rw [e0, hr]; omega
  | ⟨1, _⟩ => show win1_1.index t (1 : Fin 2) * 128 + 1 * l.val = l.val; rw [e1]; omega

/-- Window 2 is staged whole at every point: its block is its array. -/
theorem w2l_block1 (c : Dev nD) (t : Fin cfg1.N) : (iblk1 V c 2 t : S128x128.Idx → EReal) = V c main_v34 := by
  funext y
  obtain ⟨a, b, rfl⟩ : ∃ (a : Fin 128) (b : Fin 128), y = ix2 a b := ⟨y 0, y 1, eq_ix2 y⟩
  obtain ⟨-, -, -, -, e0, e1, -⟩ := blocks_at1 t
  unfold iblk1
  rw [View.read_apply]
  show V c main_v34 _ = V c main_v34 _
  refine congrArg (V c main_v34) (funext fun d => Fin.ext ?_)
  match d with
  | ⟨0, _⟩ => show win1_2.index t (0 : Fin 2) * 128 + 1 * a.val = a.val; rw [e0]; omega
  | ⟨1, _⟩ => show win1_2.index t (1 : Fin 2) * 128 + 1 * b.val = b.val; rw [e1]; omega

/-- Window 3 is staged whole at every point: its block is its array. -/
theorem w2r_block1 (c : Dev nD) (t : Fin cfg1.N) : (iblk1 V c 3 t : S128x128.Idx → EReal) = V c main_v35 := by
  funext y
  obtain ⟨a, b, rfl⟩ : ∃ (a : Fin 128) (b : Fin 128), y = ix2 a b := ⟨y 0, y 1, eq_ix2 y⟩
  obtain ⟨-, -, -, -, -, -, e0, e1, -⟩ := blocks_at1 t
  unfold iblk1
  rw [View.read_apply]
  show V c main_v35 _ = V c main_v35 _
  refine congrArg (V c main_v35) (funext fun d => Fin.ext ?_)
  match d with
  | ⟨0, _⟩ => show win1_3.index t (0 : Fin 2) * 128 + 1 * a.val = a.val; rw [e0]; omega
  | ⟨1, _⟩ => show win1_3.index t (1 : Fin 2) * 128 + 1 * b.val = b.val; rw [e1]; omega

/-- Window 4 is staged whole at every point: its block is its array. -/
theorem b2_block1 (c : Dev nD) (t : Fin cfg1.N) : (iblk1 V c 4 t : S128.Idx → EReal) = V c main_arg7 := by
  funext y
  obtain ⟨a, rfl⟩ : ∃ (a : Fin 128), y = ix1 a := ⟨y 0, eq_ix1 y⟩
  obtain ⟨-, -, -, -, -, -, -, -, e0, -⟩ := blocks_at1 t
  unfold iblk1
  rw [View.read_apply]
  show V c main_arg7 _ = V c main_arg7 _
  refine congrArg (V c main_arg7) (funext fun d => Fin.ext ?_)
  match d with
  | ⟨0, _⟩ => show win1_4.index t (0 : Fin 1) * 128 + 1 * a.val = a.val; rw [e0]; omega

/-- Window 5 is staged whole at every point: its block is its array. -/
theorem wh1_block1 (c : Dev nD) (t : Fin cfg1.N) : (iblk1 V c 5 t : S128x64.Idx → EReal) = V c main_v36 := by
  funext y
  obtain ⟨a, b, rfl⟩ : ∃ (a : Fin 128) (b : Fin 64), y = ix2 a b := ⟨y 0, y 1, eq_ix2 y⟩
  obtain ⟨-, -, -, -, -, -, -, -, -, e0, e1, -⟩ := blocks_at1 t
  unfold iblk1
  rw [View.read_apply]
  show V c main_v36 _ = V c main_v36 _
  refine congrArg (V c main_v36) (funext fun d => Fin.ext ?_)
  match d with
  | ⟨0, _⟩ => show win1_5.index t (0 : Fin 2) * 128 + 1 * a.val = a.val; rw [e0]; omega
  | ⟨1, _⟩ => show win1_5.index t (1 : Fin 2) * 64 + 1 * b.val = b.val; rw [e1]; omega

/-- Window 6 is staged whole at every point: its block is its array. -/
theorem bh1_block1 (c : Dev nD) (t : Fin cfg1.N) : (iblk1 V c 6 t : S64.Idx → EReal) = V c main_arg9 := by
  funext y
  obtain ⟨a, rfl⟩ : ∃ (a : Fin 64), y = ix1 a := ⟨y 0, eq_ix1 y⟩
  obtain ⟨-, -, -, -, -, -, -, -, -, -, -, e0, -⟩ := blocks_at1 t
  unfold iblk1
  rw [View.read_apply]
  show V c main_arg9 _ = V c main_arg9 _
  refine congrArg (V c main_arg9) (funext fun d => Fin.ext ?_)
  match d with
  | ⟨0, _⟩ => show win1_6.index t (0 : Fin 1) * 64 + 1 * a.val = a.val; rw [e0]; omega

/-- Window 7 is staged whole at every point: its block is its array. -/
theorem wh2_block1 (c : Dev nD) (t : Fin cfg1.N) : (iblk1 V c 7 t : S64x1.Idx → EReal) = V c main_v37 := by
  funext y
  obtain ⟨a, b, rfl⟩ : ∃ (a : Fin 64) (b : Fin 1), y = ix2 a b := ⟨y 0, y 1, eq_ix2 y⟩
  obtain ⟨-, -, -, -, -, -, -, -, -, -, -, -, e0, e1, -⟩ := blocks_at1 t
  unfold iblk1
  rw [View.read_apply]
  show V c main_v37 _ = V c main_v37 _
  refine congrArg (V c main_v37) (funext fun d => Fin.ext ?_)
  match d with
  | ⟨0, _⟩ => show win1_7.index t (0 : Fin 2) * 64 + 1 * a.val = a.val; rw [e0]; omega
  | ⟨1, _⟩ => show win1_7.index t (1 : Fin 2) * 1 + 1 * b.val = b.val; rw [e1]; omega

/-- Window 8 is staged whole at every point: its block is its array. -/
theorem bh2_block1 (c : Dev nD) (t : Fin cfg1.N) : (iblk1 V c 8 t : S1.Idx → EReal) = V c main_arg11 := by
  funext y
  obtain ⟨a, rfl⟩ : ∃ (a : Fin 1), y = ix1 a := ⟨y 0, eq_ix1 y⟩
  obtain ⟨-, -, -, -, -, -, -, -, -, -, -, -, -, -, e0, -⟩ := blocks_at1 t
  unfold iblk1
  rw [View.read_apply]
  show V c main_arg11 _ = V c main_arg11 _
  refine congrArg (V c main_arg11) (funext fun d => Fin.ext ?_)
  match d with
  | ⟨0, _⟩ => show win1_8.index t (0 : Fin 1) * 1 + 1 * a.val = a.val; rw [e0]; omega

/-- Entry (p, 0) of the output block at point t is entry (5000·t + p, 0) of the array. -/
theorem out_block1 (t : Fin cfg1.N) (p : Fin 5000) (z : Fin 1) (r : Fin 100000) (hr : r.val = t.val * 5000 + p.val) :
    ((cfg1.win 9).blk t).view.emb (ix2 p z) = (ix2 r z : S100000x1.Idx) := by
  obtain ⟨-, -, -, -, -, -, -, -, -, -, -, -, -, -, -, e0, e1⟩ := blocks_at1 t
  refine funext fun a => Fin.ext ?_
  match a with
  | ⟨0, _⟩ => show win1_9.index t (0 : Fin 2) * 5000 + 1 * p.val = r.val; rw [e0, hr]; omega
  | ⟨1, _⟩ => show win1_9.index t (1 : Fin 2) * 1 + 1 * z.val = z.val; rw [e1]; omega

/-- What point t writes back is block t of the head computed from the arrays the region finds. -/
theorem flushed1_eq (c : Dev nD) (t : Fin cfg1.N) :
    (dat1 V c).flushed 9 t = ((cfg1.win 9).blk t).view.read (Elt Ideal)
      (Cert.Spec.head (V c main_v33) (V c main_v21) (V c main_v34) (V c main_v35) (V c main_arg7) (V c main_v36) (V c main_arg9) (V c main_v37) (V c main_arg11)) := by
  show (cfg1.win 9).cut (grid1.coords t) ((dat1 V c).after 9 t) = _
  rw [after1_9]
  unfold out1_9
  rw [View.canon_unit_zero zeros2]
  simp only [View.ld_unit_zero (S := S5000x128) zeros2, View.ld_unit_zero (S := S128x128) zeros2, View.ld_unit_zero (S := S128) zeros1,
    View.ld_unit_zero (S := S128x64) zeros2, View.ld_unit_zero (S := S64) zeros1, View.ld_unit_zero (S := S64x1) zeros2,
    View.ld_unit_zero (S := S1) zeros1]
  funext j
  revert j
  show ∀ j : S5000x1.Idx, k1_pay1 (k1_pay2 (iblk1 V c 0 t) (iblk1 V c 1 t) (iblk1 V c 2 t) (iblk1 V c 3 t) (iblk1 V c 4 t) (iblk1 V c 5 t) (iblk1 V c 6 t) (iblk1 V c 7 t) (iblk1 V c 8 t)) j
      = Cert.Spec.head (V c main_v33) (V c main_v21) (V c main_v34) (V c main_v35) (V c main_arg7) (V c main_v36) (V c main_arg9) (V c main_v37) (V c main_arg11) (((cfg1.win 9).blk t).view.emb j)
  intro j
  obtain ⟨p, z, rfl⟩ : ∃ (p : Fin 5000) (z : Fin 1), j = ix2 p z := ⟨j 0, j 1, eq_ix2 j⟩
  have ht := point_lt1 t
  have hp := p.isLt
  obtain ⟨r, hr⟩ : ∃ r : Fin 100000, r.val = t.val * 5000 + p.val := ⟨⟨t.val * 5000 + p.val, by omega⟩, rfl⟩
  refine (Cert.Payloads.pay_head (iblk1 V c 0 t) (iblk1 V c 1 t) (iblk1 V c 2 t) (iblk1 V c 3 t) (iblk1 V c 4 t) (iblk1 V c 5 t) (iblk1 V c 6 t) (iblk1 V c 7 t) (iblk1 V c 8 t) p z).trans ?_
  have hm : (fun l : Fin 128 => iblk1 V c 0 t (ix2 p l)) = fun l => V c main_v33 (ix2 r l) := funext fun l => mean_block1 V c t p l r hr
  have hh : (fun l : Fin 128 => iblk1 V c 1 t (ix2 p l)) = fun l => V c main_v21 (ix2 r l) := funext fun l => feat_block1 V c t p l r hr
  rw [out_block1 t p z r hr, Cert.Spec.head_ix2, hm, hh, w2l_block1 V c t, w2r_block1 V c t, b2_block1 V c t, wh1_block1 V c t,
    bh1_block1 V c t, wh2_block1 V c t, bh2_block1 V c t]

/-- An index lies in point t's output block when each coordinate is within the block's range on its axis. -/
theorem mem_out_block1 (t : Fin cfg1.N) (i : S100000x1.Idx) :
    i ∈ ((cfg1.win 9).blk t).view.set ↔ ∀ a : Fin 2, win1_9.index t a * S5000x1.size a ≤ (i a).val ∧ (i a).val < win1_9.index t a * S5000x1.size a + S5000x1.size a := by
  show i ∈ ((View.whole main_v38).slice (win1_9.rect t)).set ↔ _
  rw [View.set_slice_whole, Rect.mem_set_unit]
  exact Iff.rfl

/-- The twenty output blocks cover the array (row r is in block r / 5000), so after the region the result array is the
    head of the specification of the arrays the region found. -/
theorem final1 (c : Dev nD) : (dat1 V c).arrAt 9 cfg1.N
    = Cert.Spec.head (V c main_v33) (V c main_v21) (V c main_v34) (V c main_v35) (V c main_arg7) (V c main_v36) (V c main_arg9) (V c main_v37) (V c main_arg11) :=
  (dat1 V c).arrAt_eq_of_cover 9 _ (fun t _ => flushed1_eq V c t) (fun (i : S100000x1.Idx) => by
    have hi0 : (i 0).val < 100000 := (i 0).isLt
    have hi1 : (i 1).val < 1 := (i 1).isLt
    obtain ⟨t, ht⟩ : ∃ t : Fin cfg1.N, t.val = (i 0).val / 5000 := ⟨⟨(i 0).val / 5000, by rw [show cfg1.N = 20 from N_1]; omega⟩, rfl⟩
    obtain ⟨-, -, -, -, -, -, -, -, -, -, -, -, -, -, -, e0, e1⟩ := blocks_at1 t
    refine ⟨t, flush1_9 t, ?_⟩
    rw [mem_out_block1]
    intro a
    match a with
    | ⟨0, _⟩ => show win1_9.index t (0 : Fin 2) * 5000 ≤ (i 0).val ∧ (i 0).val < win1_9.index t (0 : Fin 2) * 5000 + 5000; rw [e0, ht]; omega
    | ⟨1, _⟩ => show win1_9.index t (1 : Fin 2) * 1 ≤ (i 1).val ∧ (i 1).val < win1_9.index t (1 : Fin 2) * 1 + 1; rw [e1]; omega)

end Cert.KernelIdeal.Hand

end
-- ==== Proof.HostValues.lean ====
/-
  What the host stretches of the idealized kernel program leave in the buffers the two regions read, written with the
  reference's own stage functions (the generated per-operation functions `val_main_vN` of the reference): both programs
  build the edge lists, the clamped in-degree and the neighbour means by the same host operations on the same
  arguments, so a buffer of one is a stage of the other, by unfolding both — no gather or scatter is ever opened.

  `W1`, `W2`, `W3` are the generated frame's buffer contents after the first host stretch, after the first region and
  after the second host stretch.  A buffer no operation of a stretch writes keeps what it held; a region changes only
  its own output array.  The two programs' dimension records of a gather or a scatter are equal field by field.
-/
import proofs.«106141_j46351287058741_1_alg».proof.Proof.Gen.KernelIdeal.Frame
import proofs.«106141_j46351287058741_1_alg».proof.Proof.Gen.ReferenceIdeal.Read
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Cert.ReferenceIdeal.Read

variable {F : FTy → Type} [FloatOps F]
variable (m : (ℓ : Loc nD τ sig) → Buf (Elt F) ℓ) (ρ : Dev nD → PrngReg)

/-! ## After the first host stretch -/

/-- The edges' source nodes. -/
theorem W1_src (c : Dev nD) : W1 m ρ c (Proc.devRef .tc main_v1) = val_main_v1 (F := F) (m ((c : Thread nD τ).loc main_arg1)) := by
  show StableHlo.after hostOps0 (W0 m ρ c) (Proc.devRef .tc main_v1) = _
  after_results_simp
  rfl

/-- The edges' target nodes. -/
theorem W1_dst (c : Dev nD) : W1 m ρ c (Proc.devRef .tc main_v3) = val_main_v3 (F := F) (m ((c : Thread nD τ).loc main_arg1)) := by
  show StableHlo.after hostOps0 (W0 m ρ c) (Proc.devRef .tc main_v3) = _
  after_results_simp
  rfl

/-- The clamped in-degree, which the reference computes a second time for its second layer: the same stage. -/
theorem W1_cnt (c : Dev nD) : W1 m ρ c (Proc.devRef .tc main_v9) = val_main_v43 (F := F) (m ((c : Thread nD τ).loc main_arg1)) := by
  show StableHlo.after hostOps0 (W0 m ρ c) (Proc.devRef .tc main_v9) = _
  after_results_simp
  unfold val_main_v43 val_main_v41
  rw [show scatter_S100000x1_S640000x1_S640000x1_1_0_0_1 = Cert.ReferenceIdeal.scatter_S100000x1_S640000x1_S640000x1_1_0_0_1 from rfl]
  rfl

/-- The first neighbour mean: the reference's stage of the same name. -/
theorem W1_mean1 (c : Dev nD) : W1 m ρ c (Proc.devRef .tc main_v20)
    = val_main_v20 (F := F) (m ((c : Thread nD τ).loc main_arg0)) (m ((c : Thread nD τ).loc main_arg1)) := by
  show StableHlo.after hostOps0 (W0 m ρ c) (Proc.devRef .tc main_v20) = _
  after_results_simp
  unfold val_main_v20 val_main_v13 val_main_v10 val_main_v19 val_main_v17
  rw [show gather_S100000x1_S640000x1_S640000x1_1_0_n_n_0_1_11 = Cert.ReferenceIdeal.gather_S100000x1_S640000x1_S640000x1_1_0_n_n_0_1_11 from rfl, show scatter_S100000x1_S640000x1_S640000x1_1_0_0_1 = Cert.ReferenceIdeal.scatter_S100000x1_S640000x1_S640000x1_1_0_0_1 from rfl]
  rfl

/-- The first host stretch writes no argument array. -/
theorem W1_arg0 (c : Dev nD) : W1 m ρ c (Proc.devRef .tc main_arg0) = m ((c : Thread nD τ).loc main_arg0) := by
  show StableHlo.after hostOps0 (W0 m ρ c) (Proc.devRef .tc main_arg0) = _
  after_results_simp
theorem W1_arg2 (c : Dev nD) : W1 m ρ c (Proc.devRef .tc main_arg2) = m ((c : Thread nD τ).loc main_arg2) := by
  show StableHlo.after hostOps0 (W0 m ρ c) (Proc.devRef .tc main_arg2) = _
  after_results_simp
theorem W1_arg3 (c : Dev nD) : W1 m ρ c (Proc.devRef .tc main_arg3) = m ((c : Thread nD τ).loc main_arg3) := by
  show StableHlo.after hostOps0 (W0 m ρ c) (Proc.devRef .tc main_arg3) = _
  after_results_simp
theorem W1_arg4 (c : Dev nD) : W1 m ρ c (Proc.devRef .tc main_arg4) = m ((c : Thread nD τ).loc main_arg4) := by
  show StableHlo.after hostOps0 (W0 m ρ c) (Proc.devRef .tc main_arg4) = _
  after_results_simp
theorem W1_arg5 (c : Dev nD) : W1 m ρ c (Proc.devRef .tc main_arg5) = m ((c : Thread nD τ).loc main_arg5) := by
  show StableHlo.after hostOps0 (W0 m ρ c) (Proc.devRef .tc main_arg5) = _
  after_results_simp
theorem W1_arg6 (c : Dev nD) : W1 m ρ c (Proc.devRef .tc main_arg6) = m ((c : Thread nD τ).loc main_arg6) := by
  show StableHlo.after hostOps0 (W0 m ρ c) (Proc.devRef .tc main_arg6) = _
  after_results_simp
theorem W1_arg7 (c : Dev nD) : W1 m ρ c (Proc.devRef .tc main_arg7) = m ((c : Thread nD τ).loc main_arg7) := by
  show StableHlo.after hostOps0 (W0 m ρ c) (Proc.devRef .tc main_arg7) = _
  after_results_simp
theorem W1_arg8 (c : Dev nD) : W1 m ρ c (Proc.devRef .tc main_arg8) = m ((c : Thread nD τ).loc main_arg8) := by
  show StableHlo.after hostOps0 (W0 m ρ c) (Proc.devRef .tc main_arg8) = _
  after_results_simp
theorem W1_arg9 (c : Dev nD) : W1 m ρ c (Proc.devRef .tc main_arg9) = m ((c : Thread nD τ).loc main_arg9) := by
  show StableHlo.after hostOps0 (W0 m ρ c) (Proc.devRef .tc main_arg9) = _
  after_results_simp
theorem W1_arg10 (c : Dev nD) : W1 m ρ c (Proc.devRef .tc main_arg10) = m ((c : Thread nD τ).loc main_arg10) := by
  show StableHlo.after hostOps0 (W0 m ρ c) (Proc.devRef .tc main_arg10) = _
  after_results_simp
theorem W1_arg11 (c : Dev nD) : W1 m ρ c (Proc.devRef .tc main_arg11) = m ((c : Thread nD τ).loc main_arg11) := by
  show StableHlo.after hostOps0 (W0 m ρ c) (Proc.devRef .tc main_arg11) = _
  after_results_simp

/-! ## After the first region -/

/-- The region changes only its output array: an argument array is still as launched. -/
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W2_arg9 (c : Dev nD) : W2 m ρ c (Proc.devRef .tc main_arg9) = m ((c : Thread nD τ).loc main_arg9) :=
  (W2_of_ne m ρ c main_arg9 (by decide)).trans (W1_arg9 m ρ c)
theorem W2_arg10 (c : Dev nD) : W2 m ρ c (Proc.devRef .tc main_arg10) = m ((c : Thread nD τ).loc main_arg10) :=
  (W2_of_ne m ρ c main_arg10 (by decide)).trans (W1_arg10 m ρ c)
theorem W2_arg11 (c : Dev nD) : W2 m ρ c (Proc.devRef .tc main_arg11) = m ((c : Thread nD τ).loc main_arg11) :=
  (W2_of_ne m ρ c main_arg11 (by decide)).trans (W1_arg11 m ρ c)

/-! ## After the second host stretch -/

/-- The second host stretch does not write the first layer's array. -/
theorem W3_feat (c : Dev nD) : W3 m ρ c (Proc.devRef .tc main_v21) = W2 m ρ c (Proc.devRef .tc main_v21) := by
  show StableHlo.after hostOps1 (W2 m ρ c) (Proc.devRef .tc main_v21) = _
  after_results_simp

/-- The second neighbour mean, once the first layer's array is known to be the reference's first layer: the
    reference's stage of the second mean, gathered along the same sources, summed onto the same targets and divided by
    the same clamped in-degree. -/
theorem W3_mean2 (c : Dev nD)
    (hL : W2 m ρ c (Proc.devRef .tc main_v21) = val_main_v27 (F := F) (m ((c : Thread nD τ).loc main_arg0)) (m ((c : Thread nD τ).loc main_arg1))
      (m ((c : Thread nD τ).loc main_arg2)) (m ((c : Thread nD τ).loc main_arg3)) (m ((c : Thread nD τ).loc main_arg4))) :
    W3 m ρ c (Proc.devRef .tc main_v33) = val_main_v45 (F := F) (m ((c : Thread nD τ).loc main_arg0)) (m ((c : Thread nD τ).loc main_arg1))
      (m ((c : Thread nD τ).loc main_arg2)) (m ((c : Thread nD τ).loc main_arg3)) (m ((c : Thread nD τ).loc main_arg4)) := by
  show StableHlo.after hostOps1 (W2 m ρ c) (Proc.devRef .tc main_v33) = _
  after_results_simp
  rw [hL, W2_of_ne m ρ c main_v1 (by decide), W2_of_ne m ρ c main_v3 (by decide), W2_of_ne m ρ c main_v9 (by decide),
    W1_src m ρ c, W1_dst m ρ c, W1_cnt m ρ c]
  unfold val_main_v45 val_main_v37 val_main_v34
  rw [show gather_S100000x128_S640000x1_S640000x128_1_0_n_n_0_1_1128 = Cert.ReferenceIdeal.gather_S100000x128_S640000x1_S640000x128_1_0_n_n_0_1_1128 from rfl, show scatter_S100000x128_S640000x1_S640000x128_1_0_0_1 = Cert.ReferenceIdeal.scatter_S100000x128_S640000x1_S640000x128_1_0_0_1 from rfl]
  rfl

/-- The weights enter the second region after a change of float format, which at the ideal instance is the identity. -/
theorem W3_w2l (c : Dev nD) : W3 m ρ c (Proc.devRef .tc main_v34)
    = truncf .bf16 (m ((c : Thread nD τ).loc main_arg5) : FVec F S128x128 .f32) bitsLt_bf16_f32 := by
  show StableHlo.after hostOps1 (W2 m ρ c) (Proc.devRef .tc main_v34) = _
  after_results_simp
  rw [W2_arg5 m ρ c]
/-- The same for the second layer's root weights. -/
theorem W3_w2r (c : Dev nD) : W3 m ρ c (Proc.devRef .tc main_v35)
    = truncf .bf16 (m ((c : Thread nD τ).loc main_arg6) : FVec F S128x128 .f32) bitsLt_bf16_f32 := by
  show StableHlo.after hostOps1 (W2 m ρ c) (Proc.devRef .tc main_v35) = _
  after_results_simp
  rw [W2_arg6 m ρ c]
/-- The same for the perceptron's first weights. -/
theorem W3_wh1 (c : Dev nD) : W3 m ρ c (Proc.devRef .tc main_v36)
    = truncf .bf16 (m ((c : Thread nD τ).loc main_arg8) : FVec F S128x64 .f32) bitsLt_bf16_f32 := by
  show StableHlo.after hostOps1 (W2 m ρ c) (Proc.devRef .tc main_v36) = _
  after_results_simp
  rw [W2_arg8 m ρ c]
/-- The same for the perceptron's output weights. -/
theorem W3_wh2 (c : Dev nD) : W3 m ρ c (Proc.devRef .tc main_v37)
    = truncf .bf16 (m ((c : Thread nD τ).loc main_arg10) : FVec F S64x1 .f32) bitsLt_bf16_f32 := by
  show StableHlo.after hostOps1 (W2 m ρ c) (Proc.devRef .tc main_v37) = _
  after_results_simp
  rw [W2_arg10 m ρ c]

/-- The biases reach the second region as launched. -/
theorem W3_arg7 (c : Dev nD) : W3 m ρ c (Proc.devRef .tc main_arg7) = m ((c : Thread nD τ).loc main_arg7) := by
  show StableHlo.after hostOps1 (W2 m ρ c) (Proc.devRef .tc main_arg7) = _
  after_results_simp
  exact W2_arg7 m ρ c
theorem W3_arg9 (c : Dev nD) : W3 m ρ c (Proc.devRef .tc main_arg9) = m ((c : Thread nD τ).loc main_arg9) := by
  show StableHlo.after hostOps1 (W2 m ρ c) (Proc.devRef .tc main_arg9) = _
  after_results_simp
  exact W2_arg9 m ρ c
theorem W3_arg11 (c : Dev nD) : W3 m ρ c (Proc.devRef .tc main_arg11) = m ((c : Thread nD τ).loc main_arg11) := by
  show StableHlo.after hostOps1 (W2 m ρ c) (Proc.devRef .tc main_arg11) = _
  after_results_simp
  exact W2_arg11 m ρ c

end Cert.KernelIdeal.Hand

end
-- ==== Proof.RefLayers.lean ====
/-
  The reference program's two dense stages, read index by index on the extended reals.

  * `ref_layer1`: the stage after the first rectifier is, entry by entry, `Cert.Spec.layer1` of the first neighbour mean,
    the node features, the two weight rows and the bias.  Both matrix products contract over an axis of length one, so each
    sum has one term.
  * `ref_head`: the result is, node by node, `Cert.Spec.head` of the second neighbour mean and the first layer's output:
    two contractions of length 128, a bias, a contraction of length 128 and a rectifier, a contraction of length 64 and a
    bias, and 1 / (1 + exp (- ·)) with the literal 1.0 kept as its word.
  The neighbour means are never opened: each is replaced by an arbitrary array, so the equalities hold for any such array.
-/
import proofs.«106141_j46351287058741_1_alg».proof.Proof.Gen.ReferenceIdeal.Read
import proofs.«106141_j46351287058741_1_alg».proof.Proof.Spec
import Idealize.ShloMosaic.Lib.ValueIdx
import Idealize.ShloMosaic.Lib.Pipeline.Value
import Idealize.ShloMosaic.PureOps.Ideal.Laws

noncomputable section

open scoped BigOperators

namespace Cert.RefLayers

open Cert.ReferenceIdeal Cert.ReferenceIdeal.Gen Cert.ReferenceIdeal.Read Idealize.ShloMosaic Idealize.ShloMosaic.ValueIdx

/-! ## Layer 1 -/

theorem ref_layer1 (x0 : (⟨S100000x1, .f32⟩ : BufTy).Contents (Elt Ideal)) (x1 : (⟨S2x640000, .i32⟩ : BufTy).Contents (Elt Ideal))
    (x2 x3 : (⟨S1x128, .f32⟩ : BufTy).Contents (Elt Ideal)) (x4 : (⟨S128, .f32⟩ : BufTy).Contents (Elt Ideal)) :
    val_main_v27 (F := Ideal) x0 x1 x2 x3 x4 = Cert.Spec.layer1 (val_main_v20 (F := Ideal) x0 x1) x0 x2 x3 x4 := by
  funext i
  obtain ⟨r, c, rfl⟩ : ∃ (r : Fin 100000) (c : Fin 128), i = ix2 r c := ⟨i 0, i 1, eq_ix2 i⟩
  rw [Cert.Spec.layer1_ix2]
  rw [val_main_v27_apply, val_main_v26_apply, val_main_v23_apply, val_main_v21_apply, val_main_v22_apply,
    val_main_v25_apply, val_main_v24_apply, val_main_call0_v0_apply, val_main_call0_cst_apply]
  generalize val_main_v20 (F := Ideal) x0 x1 = M
  -- the operands' indices at entry (r, c), contraction position k
  have el1 : ∀ k : Fin 1, lidx_main_v21 (ix2 r c) k = ix2 r k := fun k =>
    funext fun a => Fin.ext (by match a with | ⟨0, _⟩ => rfl | ⟨1, _⟩ => rfl)
  have er1 : ∀ k : Fin 1, ridx_main_v21 (ix2 r c) k = ix2 k c := fun k =>
    funext fun a => Fin.ext (by match a with | ⟨0, _⟩ => rfl | ⟨1, _⟩ => rfl)
  have el2 : ∀ k : Fin 1, lidx_main_v22 (ix2 r c) k = ix2 r k := fun k =>
    funext fun a => Fin.ext (by match a with | ⟨0, _⟩ => rfl | ⟨1, _⟩ => rfl)
  have er2 : ∀ k : Fin 1, ridx_main_v22 (ix2 r c) k = ix2 k c := fun k =>
    funext fun a => Fin.ext (by match a with | ⟨0, _⟩ => rfl | ⟨1, _⟩ => rfl)
  have eb : idx_main_v24 (idx_main_v25 (ix2 r c)) = ix1 c :=
    funext fun a => Fin.ext (by match a with | ⟨0, _⟩ => rfl)
  simp only [el1, er1, el2, er2, eb, Fin.sum_univ_one, Cert.Spec.layer1At, Ideal.addf_def, Ideal.maximumf_def,
    Ideal.ofBits_def, Ideal.ofBits_zero_f32]

/-! ## Layer 2 and the head -/

theorem ref_head (x0 : (⟨S100000x1, .f32⟩ : BufTy).Contents (Elt Ideal)) (x1 : (⟨S2x640000, .i32⟩ : BufTy).Contents (Elt Ideal))
    (x2 x3 : (⟨S1x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal))
    (x8 : (⟨S128x64, .f32⟩ : BufTy).Contents (Elt Ideal)) (x9 : (⟨S64, .f32⟩ : BufTy).Contents (Elt Ideal))
    (x10 : (⟨S64x1, .f32⟩ : BufTy).Contents (Elt Ideal)) (x11 : (⟨S1, .f32⟩ : BufTy).Contents (Elt Ideal)) :
    val_main_v66 (F := Ideal) x0 x1 x2 x3 x4 x5 x6 x7 x8 x9 x10 x11
      = Cert.Spec.head (val_main_v45 (F := Ideal) x0 x1 x2 x3 x4) (val_main_v27 (F := Ideal) x0 x1 x2 x3 x4)
          x5 x6 x7 x8 x9 x10 x11 := by
  funext i
  obtain ⟨r, z, rfl⟩ : ∃ (r : Fin 100000) (z : Fin 1), i = ix2 r z := ⟨i 0, i 1, eq_ix2 i⟩
  have hz : z = 0 := Subsingleton.elim z 0
  subst hz
  rw [Cert.Spec.head_ix2]
  -- the operands' indices: the last contraction (length 64) and its bias
  have el57 : ∀ k : Fin 64, lidx_main_v57 (ix2 r (0 : Fin 1)) k = ix2 r k := fun k => funext fun a => Fin.ext (by match a with | ⟨0, _⟩ => rfl | ⟨1, _⟩ => rfl)
  have er57 : ∀ k : Fin 64, ridx_main_v57 (ix2 r (0 : Fin 1)) k = ix2 k (0 : Fin 1) := fun k => funext fun a => Fin.ext (by match a with | ⟨0, _⟩ => rfl | ⟨1, _⟩ => rfl)
  have eb59 : idx_main_v58 (idx_main_v59 (ix2 r (0 : Fin 1))) = ix1 (0 : Fin 1) := funext fun a => Fin.ext (by match a with | ⟨0, _⟩ => rfl)
  -- the perceptron's hidden layer (contraction of length 128) and its bias, at column k
  have el52 : ∀ (k : Fin 64) (j : Fin 128), lidx_main_v52 (ix2 r k) j = ix2 r j := fun k j => funext fun a => Fin.ext (by match a with | ⟨0, _⟩ => rfl | ⟨1, _⟩ => rfl)
  have er52 : ∀ (k : Fin 64) (j : Fin 128), ridx_main_v52 (ix2 r k) j = ix2 j k := fun k j => funext fun a => Fin.ext (by match a with | ⟨0, _⟩ => rfl | ⟨1, _⟩ => rfl)
  have eb54 : ∀ k : Fin 64, idx_main_v53 (idx_main_v54 (ix2 r k)) = ix1 k := fun k => funext fun a => Fin.ext (by match a with | ⟨0, _⟩ => rfl)
  -- the second layer's two contractions (length 128) and its bias, at column j
  have el46 : ∀ (j l : Fin 128), lidx_main_v46 (ix2 r j) l = ix2 r l := fun j l => funext fun a => Fin.ext (by match a with | ⟨0, _⟩ => rfl | ⟨1, _⟩ => rfl)
  have er46 : ∀ (j l : Fin 128), ridx_main_v46 (ix2 r j) l = ix2 l j := fun j l => funext fun a => Fin.ext (by match a with | ⟨0, _⟩ => rfl | ⟨1, _⟩ => rfl)
  have el47 : ∀ (j l : Fin 128), lidx_main_v47 (ix2 r j) l = ix2 r l := fun j l => funext fun a => Fin.ext (by match a with | ⟨0, _⟩ => rfl | ⟨1, _⟩ => rfl)
  have er47 : ∀ (j l : Fin 128), ridx_main_v47 (ix2 r j) l = ix2 l j := fun j l => funext fun a => Fin.ext (by match a with | ⟨0, _⟩ => rfl | ⟨1, _⟩ => rfl)
  have eb50 : ∀ j : Fin 128, idx_main_v49 (idx_main_v50 (ix2 r j)) = ix1 j := fun j => funext fun a => Fin.ext (by match a with | ⟨0, _⟩ => rfl)
  rw [val_main_v66_apply, val_main_v65_apply, val_main_cst_11_apply, val_main_v64_apply, val_main_v63_apply,
    val_main_cst_10_apply, val_main_v62_apply, val_main_v61_apply, val_main_v60_apply, val_main_v57_apply,
    val_main_v59_apply, val_main_v58_apply]
  simp only [el57, er57, eb59, val_main_v56_apply, val_main_v55_apply, val_main_v52_apply, val_main_v54_apply,
    val_main_v53_apply, val_main_call1_v0_apply, val_main_call1_cst_apply, el52, er52, eb54,
    val_main_v51_apply, val_main_v48_apply, val_main_v46_apply, val_main_v47_apply, val_main_v50_apply,
    val_main_v49_apply, el46, er46, el47, er47, eb50]
  generalize val_main_v45 (F := Ideal) x0 x1 x2 x3 x4 = M
  generalize val_main_v27 (F := Ideal) x0 x1 x2 x3 x4 = H
  simp only [Cert.Spec.headRow, Cert.Spec.sigmoid, Cert.Spec.logit, Cert.Spec.mlp1, Cert.Spec.hidden2, Ideal.addf_def,
    Ideal.maximumf_def, Ideal.hostDivf_def, Ideal.hostNegf_def, Ideal.negf_def, Ideal.hostUnary_exp_def, Ideal.ofBits_def,
    Ideal.ofBits_zero_f32]

end Cert.RefLayers

end
-- ==== Proof.KernelValue.lean ====
/-
  The idealized kernel program's result as one function of its arguments.

  Following the buffers through the program's four stretches: the first host stretch leaves the first neighbour mean
  (the reference's stage of it); the first region then leaves layer 1 of the specification of that mean and the
  arguments, which is the reference's layer 1; the second host stretch leaves the second neighbour mean — the
  reference's stage of it, since it gathers the same layer-1 array along the same edges — and the weights after a
  change of float format, the identity on extended reals; the second region leaves the head of the specification.
  So the result buffer ends at the head of the specification applied to the reference's own second mean and first layer.
-/
import proofs.«106141_j46351287058741_1_alg».proof.Proof.Blocks0
import proofs.«106141_j46351287058741_1_alg».proof.Proof.Blocks1
import proofs.«106141_j46351287058741_1_alg».proof.Proof.HostValues
import proofs.«106141_j46351287058741_1_alg».proof.Proof.RefLayers

set_option maxRecDepth 16384

noncomputable section

namespace Cert.KernelIdeal.Hand

open Cert.KernelIdeal Cert.KernelIdeal.Gen
open Idealize.ShloMosaic Idealize.ShloMosaic.TcCoe Idealize.SL.Sem
open Cert.ReferenceIdeal.Read

variable (m : (ℓ : Loc nD τ sig) → Buf (Elt Ideal) ℓ) (ρ : Dev nD → PrngReg)

/-- The common result: the head of the specification at the second neighbour mean and the first layer (both as the
    reference's stages of the argument arrays) and the second layer's and the perceptron's weights and biases. -/
def result (c : Dev nD) : Cert.Spec.Mat 100000 1 :=
  Cert.Spec.head (val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)))
    (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- After the first region the layer-1 array is the reference's layer 1 of the arguments. -/
theorem layer1_value (c : Dev nD) : W2 m ρ c (Proc.devRef .tc main_v21) = val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine ((W2_arr m ρ c 5).trans (final0 (V1 m ρ) c)).trans ?_
  rw [Cert.RefLayers.ref_layer1]
  show Cert.Spec.layer1 (W1 m ρ c (Proc.devRef .tc main_v20)) (W1 m ρ c (Proc.devRef .tc main_arg0)) (W1 m ρ c (Proc.devRef .tc main_arg2))
    (W1 m ρ c (Proc.devRef .tc main_arg3)) (W1 m ρ c (Proc.devRef .tc main_arg4)) = _
  rw [W1_mean1 m ρ c, W1_arg0 m ρ c, W1_arg2 m ρ c, W1_arg3 m ρ c, W1_arg4 m ρ c]

/-- After the second region the result array is the common result. -/
theorem result_value (c : Dev nD) : W4 m ρ c (Proc.devRef .tc main_v38) = result m c := by
  have hL := layer1_value m ρ c
  refine ((W4_arr m ρ c 9).trans (final1 (V3 m ρ) c)).trans ?_
  show Cert.Spec.head (W3 m ρ c (Proc.devRef .tc main_v33)) (W3 m ρ c (Proc.devRef .tc main_v21)) (W3 m ρ c (Proc.devRef .tc main_v34))
    (W3 m ρ c (Proc.devRef .tc main_v35)) (W3 m ρ c (Proc.devRef .tc main_arg7)) (W3 m ρ c (Proc.devRef .tc main_v36))
    (W3 m ρ c (Proc.devRef .tc main_arg9)) (W3 m ρ c (Proc.devRef .tc main_v37)) (W3 m ρ c (Proc.devRef .tc main_arg11)) = _
  rw [W3_mean2 m ρ c hL, W3_feat m ρ c, hL, W3_w2l m ρ c, W3_w2r m ρ c, W3_arg7 m ρ c, W3_wh1 m ρ c, W3_arg9 m ρ c,
    W3_wh2 m ρ c, W3_arg11 m ρ c]
  rfl

end Cert.KernelIdeal.Hand

end
-- ==== Proof.lean ====
/-
  The certificate: a two-layer GraphSAGE encoder with a perceptron head, computed by two tiled regions among host
  operations, against its plain reference, over the extended reals.

  Both programs build the neighbour means by the same host operations (a gather along the edges' sources, a
  scatter-add onto their targets, a division by the in-degree clamped at one); they differ in how the dense part is
  spelt.  The tiled program computes layer 1 as products of a column by a weight row where the reference contracts an
  axis of length one, runs its matrix products block by block into zero accumulators on operands whose float format
  was narrowed (the identity on extended reals), writes the logistic function with 0 − x where the reference negates,
  and computes the in-degree once where the reference computes it per layer.  None of these changes an extended real:
  the laws used are that a sum over one index is its term, that 0 + s = s and 0 − x = −x, and that a block of an array
  function is the function on the block's rows — none needs finiteness, so the precondition is never opened.

  The three frames are the generated ones (the reference's is its generated run with the result dropped); the
  idealization rewrote nothing; and the two idealized programs end at one common array (`KernelIdeal.Hand.result`):
  the tiled program by following its buffers through its four stretches, the reference by its generated run read
  stage by stage.
-/
import proofs.«106141_j46351287058741_1_alg».proof.Defs
import proofs.«106141_j46351287058741_1_alg».proof.Proof.Gen.Kernel
import proofs.«106141_j46351287058741_1_alg».proof.Proof.Gen.Kernel.Skeleton
import proofs.«106141_j46351287058741_1_alg».proof.Proof.Gen.Kernel.Launch
import proofs.«106141_j46351287058741_1_alg».proof.Proof.Gen.Kernel.Points
import proofs.«106141_j46351287058741_1_alg».proof.Proof.Gen.Kernel.Frame
import proofs.«106141_j46351287058741_1_alg».proof.Proof.Gen.KernelIdeal
import proofs.«106141_j46351287058741_1_alg».proof.Proof.Gen.KernelIdeal.Skeleton
import proofs.«106141_j46351287058741_1_alg».proof.Proof.Gen.KernelIdeal.Launch
import proofs.«106141_j46351287058741_1_alg».proof.Proof.Gen.KernelIdeal.Points
import proofs.«106141_j46351287058741_1_alg».proof.Proof.Gen.KernelIdeal.Frame
import proofs.«106141_j46351287058741_1_alg».proof.Proof.Gen.ReferenceIdeal
import proofs.«106141_j46351287058741_1_alg».proof.Proof.Gen.Pre_finite_inputs
import proofs.«106141_j46351287058741_1_alg».proof.Proof.Gen.ReferenceIdeal.Run
import proofs.«106141_j46351287058741_1_alg».proof.Proof.Gen.ReferenceIdeal.Read
import proofs.«106141_j46351287058741_1_alg».proof.Proof.KernelRun
import proofs.«106141_j46351287058741_1_alg».proof.Proof.KernelValue
import proofs.«106141_j46351287058741_1_alg».proof.Proof.RefLayers
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no tiled region: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs, run from memories that agree on the arguments, end with the common result array: the
    tiled program's result buffer holds it after its last region (`result_value`), and the reference's result stage is
    the head of the specification at its own second mean and first layer (`ref_head`), the arguments' agreement
    rewritten. -/
theorem algebraic : Cert.algebraic_KernelIdeal_ReferenceIdeal := by
  intro m ρ m' ρ' _ hagree
  refine ⟨fun c => Cert.KernelIdeal.Hand.result m c, ?_, ?_⟩
  · exact (θ_run Cert.KernelIdeal.defs _ _).mono
      (fun _ h c => ⟨(h c).1.trans (Cert.KernelIdeal.Hand.result_value m ρ c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11⟩ := hagree c
    rw [Cert.ReferenceIdeal.Read.val_main_v66_eq, Cert.RefLayers.ref_head, h0, h1, h2, h3, h4, h5, h6, h7, h8, h9, h10, h11]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
